-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4x4096x4096 : Shape := ⟨3, ![4, 4096, 4096]⟩
abbrev S4 : Shape := ⟨1, ![4]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4 : S_.BroadcastsInDim S4 (![] : Fin 0 → Fin S4.rank)
  reducesTo_S4_S_d0 : S4.ReducesTo [0] S_

variable [Facts]

def fn {F : FTy → Type} [FloatOps F] (main_arg0 : FVec F S4096x256 .f32) (main_arg1 : FVec F S4x4096x4096 .f32) (main_arg2 : FVec F S4 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S4096x256 : Shape := ⟨2, ![4096, 256]⟩
abbrev S4x4096x4096 : Shape := ⟨3, ![4, 4096, 4096]⟩
abbrev S4 : Shape := ⟨1, ![4]⟩
abbrev S1x4 : Shape := ⟨2, ![1, 4]⟩
abbrev S4x128x4096 : Shape := ⟨3, ![4, 128, 4096]⟩
abbrev S128x256 : Shape := ⟨2, ![128, 256]⟩
abbrev S1x1 : Shape := ⟨2, ![1, 1]⟩
abbrev S1x128x4096 : Shape := ⟨3, ![1, 128, 4096]⟩
abbrev S128x4096 : Shape := ⟨2, ![128, 4096]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4x4096x4096, .f32⟩
  | .hbm, ⟨2, _⟩ => ⟨S4, .f32⟩
  | .hbm, ⟨3, _⟩ => ⟨S1x4, .f32⟩
  | .hbm, ⟨4, _⟩ => ⟨S4096x256, .f32⟩
  | .local _ .vmem, ⟨0, _⟩ => ⟨S1x4, .f32⟩
  | .local _ .vmem, ⟨1, _⟩ => ⟨S4x128x4096, .f32⟩
  | .local _ .vmem, ⟨2, _⟩ => ⟨S4x128x4096, .f32⟩
  | .local _ .vmem, ⟨3, _⟩ => ⟨S4096x256, .f32⟩
  | .local _ .vmem, ⟨4, _⟩ => ⟨S128x256, .f32⟩
  | .local _ .vmem, ⟨5, _⟩ => ⟨S128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4_S1x4 : S4.ShapeCasts S1x4
  inb_S1x4_S1x1_0_0 : ∀ a, (![0, 0] : Fin 2 → Nat) a + S1x1.size a ≤ S1x4.size a
  h_S1x1 : 0 < S1x1.numel
  inpos_S1x1_p0_0 : ∀ a, (![0, 0] : Fin 2 → Nat) a < S1x1.size a
  inb_S4x128x4096_S1x128x4096_0_0_0 : ∀ a, (![0, 0, 0] : Fin 3 → Nat) a + S1x128x4096.size a ≤ S4x128x4096.size a
  h_S1x128x4096 : 0 < S1x128x4096.numel
  shapeCasts_S1x128x4096_S128x4096 : S1x128x4096.ShapeCasts S128x4096
  inb_S1x4_S1x1_0_1 : ∀ a, (![0, 1] : Fin 2 → Nat) a + S1x1.size a ≤ S1x4.size a
  inb_S4x128x4096_S1x128x4096_1_0_0 : ∀ a, (![1, 0, 0] : Fin 3 → Nat) a + S1x128x4096.size a ≤ S4x128x4096.size a
  inb_S1x4_S1x1_0_2 : ∀ a, (![0, 2] : Fin 2 → Nat) a + S1x1.size a ≤ S1x4.size a
  inb_S4x128x4096_S1x128x4096_2_0_0 : ∀ a, (![2, 0, 0] : Fin 3 → Nat) a + S1x128x4096.size a ≤ S4x128x4096.size a
  inb_S1x4_S1x1_0_3 : ∀ a, (![0, 3] : Fin 2 → Nat) a + S1x1.size a ≤ S1x4.size a
  inb_S4x128x4096_S1x128x4096_3_0_0 : ∀ a, (![3, 0, 0] : Fin 3 → Nat) a + S1x128x4096.size a ≤ S4x128x4096.size a
  inb_S4096x256_S4096x256_0_0 : ∀ a, (![0, 0] : Fin 2 → Nat) a + S4096x256.size a ≤ S4096x256.size a
  h_S4096x256 : 0 < S4096x256.numel
  inb_S128x256_S128x256_0_0 : ∀ a, (![0, 0] : Fin 2 → Nat) a + S128x256.size a ≤ S128x256.size a
  h_S128x256 : 0 < S128x256.numel
  dot_S128x4096_S4096x256_S128x256_1_0_0_1_n_n_wf : DotDims.WF S128x4096 S4096x256 S128x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4.size a ≤ S1x4.size a
  hwx0_0 : ∀ i : grid0.Coords, EltTy.bits .f32 = 32 ∨ (Rect.block (s := S1x4) S1x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x4096.size a ≤ S4x4096x4096.size a
  hwx0_1 : ∀ i : grid0.Coords, EltTy.bits .f32 = 32 ∨ (Rect.block (s := S4x4096x4096) S4x128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S4096x256.size a
  hwx0_3 : ∀ i : grid0.Coords, EltTy.bits .f32 = 32 ∨ (Rect.block (s := S4096x256) S128x256.size (cc0_transform_3 i) (hinb0_3 i)).WholeWords (EltTy.packing .f32)

variable [Facts₀]

def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf

abbrev win0_0 : Pipeline.Window sig grid0 :=
  Pipeline.Window.ofSpec (Memref.whole main_call0_v0) S1x4.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4x4096x4096 : Shape := ⟨3, ![4, 4096, 4096]⟩
abbrev S4 : Shape := ⟨1, ![4]⟩
abbrev S1x4096x4096 : Shape := ⟨3, ![1, 4096, 4096]⟩
abbrev S4096x4096 : Shape := ⟨2, ![4096, 4096]⟩
abbrev S_ : Shape := ⟨0, ![]⟩
abbrev S1 : Shape := ⟨1, ![1]⟩

abbrev nBuf : Space → Nat
  | .hbm => 36
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4x4096x4096, .f32⟩
  | .hbm, ⟨2, _⟩ => ⟨S4, .f32⟩
  | .hbm, ⟨3, _⟩ => ⟨S1x4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S1, .f32⟩
  | .hbm, ⟨8, _⟩ => ⟨S_, .f32⟩
  | .hbm, ⟨9, _⟩ => ⟨S1x4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S1, .f32⟩
  | .hbm, ⟨15, _⟩ => ⟨S_, .f32⟩
  | .hbm, ⟨16, _⟩ => ⟨S1x4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1, .f32⟩
  | .hbm, ⟨22, _⟩ => ⟨S_, .f32⟩
  | .hbm, ⟨23, _⟩ => ⟨S1x4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S1, .f32⟩
  | .hbm, ⟨29, _⟩ => ⟨S_, .f32⟩
  | .hbm, ⟨30, _⟩ => ⟨S1x4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]

class Facts₀ : Prop where
  slices_S4x4096x4096_S1x4096x4096_0_0_0 : S4x4096x4096.Slices ![0, 0, 0] S1x4096x4096
  shapeCasts_S1x4096x4096_S4096x4096 : S1x4096x4096.ShapeCasts S4096x4096
  bcast_S_S4096x4096 : S_.BroadcastsInDim S4096x4096 (![] : Fin 0 → Fin S4096x4096.rank)
  slices_S4_S1_0 : S4.Slices ![0] S1
  shapeCasts_S1_S_ : S1.ShapeCasts S_
  slices_S4_S1_1 : S4.Slices ![1] S1
  slices_S4x4096x4096_S1x4096x4096_1_0_0 : S4x4096x4096.Slices ![1, 0, 0] S1x4096x4096
  slices_S4_S1_2 : S4.Slices ![2] S1
  slices_S4x4096x4096_S1x4096x4096_2_0_0 : S4x4096x4096.Slices ![2, 0, 0] S1x4096x4096
  slices_S4_S1_3 : S4.Slices ![3] S1
  slices_S4x4096x4096_S1x4096x4096_3_0_0 : S4x4096x4096.Slices ![3, 0, 0] S1x4096x4096
  dot_S4096x4096_S4096x256_S4096x256_1_0_0_1_n_n_wf : DotDims.WF S4096x4096 S4096x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.FilterSpec.lean ====
/-
  The graph filter, as one function of its three arguments over the extended reals.

  Given four square operators S₀ … S₃ (stacked in one [4, 4096, 4096] array), four weights h₀ … h₃ and a signal
  matrix x of shape [4096, 256], the filter first combines the operators entry by entry,
      C (r, k) = ((h₀ · S₀ (r, k) + h₁ · S₁ (r, k)) + h₂ · S₂ (r, k)) + h₃ · S₃ (r, k),
  the four terms added from the left, and then applies the combination to the signal:
      out (r, d) = ∑ k < 4096, C (r, k) · x (k, d).
  Row r of the output reads row r of each operator only, which is why the product may be taken one band of rows
  at a time.  Nothing here needs the entries to be finite: the only laws used later are 0 + a = a and the
  reading of a matrix product as a sum.

  Also here: a vector's entry taken as a one-entry slice and then cast to rank zero is that entry.
-/
import proofs.«104318_g45509473469006_cont_8to1_b_1896_19_alg».proof.Proof.LibPlainDot
import Idealize.ShloMosaic.Lib.Pipeline.Value

noncomputable section

namespace Cert.GraphFilter

open Idealize.ShloMosaic Idealize.ShloMosaic.ValueIdx Cert.Lib.PlainDot

/-- The weighted combination of the four operators, entry by entry, the terms added from the left. -/
def combined (S : (⟨3, ![4, 4096, 4096]⟩ : Shape).Idx → EReal) (h : (⟨1, ![4]⟩ : Shape).Idx → EReal) :
    (⟨2, ![4096, 4096]⟩ : Shape).Idx → EReal :=
  fun i => h (ix1 (0 : Fin 4)) * S (ix3 (0 : Fin 4) (i 0) (i 1)) + h (ix1 (1 : Fin 4)) * S (ix3 (1 : Fin 4) (i 0) (i 1))
    + h (ix1 (2 : Fin 4)) * S (ix3 (2 : Fin 4) (i 0) (i 1)) + h (ix1 (3 : Fin 4)) * S (ix3 (3 : Fin 4) (i 0) (i 1))

theorem combined_apply (S : (⟨3, ![4, 4096, 4096]⟩ : Shape).Idx → EReal) (h : (⟨1, ![4]⟩ : Shape).Idx → EReal)
    (r k : Fin 4096) :
    combined S h (ix2 r k) = h (ix1 (0 : Fin 4)) * S (ix3 (0 : Fin 4) r k) + h (ix1 (1 : Fin 4)) * S (ix3 (1 : Fin 4) r k)
      + h (ix1 (2 : Fin 4)) * S (ix3 (2 : Fin 4) r k) + h (ix1 (3 : Fin 4)) * S (ix3 (3 : Fin 4) r k) := rfl

/-- The filter: the combined operator applied to the signal. -/
def filtered (x : (⟨2, ![4096, 256]⟩ : Shape).Idx → EReal) (S : (⟨3, ![4, 4096, 4096]⟩ : Shape).Idx → EReal)
    (h : (⟨1, ![4]⟩ : Shape).Idx → EReal) : (⟨2, ![4096, 256]⟩ : Shape).Idx → EReal :=
  mm (combined S h) x

theorem filtered_apply (x : (⟨2, ![4096, 256]⟩ : Shape).Idx → EReal) (S : (⟨3, ![4, 4096, 4096]⟩ : Shape).Idx → EReal)
    (h : (⟨1, ![4]⟩ : Shape).Idx → EReal) (r : Fin 4096) (d : Fin 256) :
    filtered x S h (ix2 r d) = ∑ k : Fin 4096, combined S h (ix2 r k) * x (ix2 k d) := rfl

/-- Entry `p` of a vector, cut out as the one-entry slice at offset `o = p` and cast to rank zero, is that entry. -/
theorem entry_of_slice {α : Type} {n : Nat} (x : (⟨1, ![n]⟩ : Shape).Idx → α) (o : Nat) (p : Fin n) (hp : p.val = o)
    (hs : (⟨1, ![n]⟩ : Shape).Slices ![o] ⟨1, ![1]⟩) (hc : (⟨1, ![1]⟩ : Shape).ShapeCasts ⟨0, ![]⟩)
    (j : (⟨0, ![]⟩ : Shape).Idx) :
    shapeCast ⟨0, ![]⟩ (extractStridedSlice ⟨1, ![1]⟩ ![o] x hs) hc j = x (ix1 p) := by
  refine (shapeCast_apply _ hc j (ix1 (0 : Fin 1)) ?_).trans ?_
  · rw [Shape.rowMajor_val_one]
    exact (Shape.rowMajorPi_zero _ j).symm
  · exact extractStridedSlice_apply ![o] x hs (ix1 (0 : Fin 1)) (ix1 p) (fun a => by
      match a with
      | ⟨0, _⟩ => show p.val = o + 0; omega)

end Cert.GraphFilter

end
-- ==== Proof.KernelBand.lean ====
/-
  One band of the filter, as the kernel's body computes it.

  At a grid point the body holds the four weights (a [1, 4] block), a band of 128 rows of each operator (a
  [4, 128, 4096] block) and the whole signal.  It forms  ((h₀·S₀ + h₁·S₁) + h₂·S₂) + h₃·S₃  on the band, entry by
  entry, and multiplies the band by the signal into a zero accumulator.  So entry (p, q) of what it stores is
      ∑ k < 4096, (((h₀·S₀ (p, k) + h₁·S₁ (p, k)) + h₂·S₂ (p, k)) + h₃·S₃ (p, k)) · x (k, q),
  and when band row p is row r of the operators this is entry (r, q) of the filter.
-/
import proofs.«104318_g45509473469006_cont_8to1_b_1896_19_alg».proof.Proof.Gen.KernelIdeal.Skeleton
import proofs.«104318_g45509473469006_cont_8to1_b_1896_19_alg».proof.Proof.FilterSpec

noncomputable section

namespace Cert.KernelIdeal.Band

open Idealize.ShloMosaic Idealize.ShloMosaic.ValueIdx Cert.KernelIdeal Cert.KernelIdeal.Gen
open Cert.GraphFilter Cert.Lib.PlainDot

/-- A band slab [1, 128, 4096] viewed as [128, 4096]: position (p, k) is position (0, p, k). -/
theorem slab_apply (v : Vec Ideal S1x128x4096 .f32) (i : S128x4096.Idx) :
    shapeCast S128x4096 v shapeCasts_S1x128x4096_S128x4096 i = v (ix3 (0 : Fin 1) (i 0) (i 1)) :=
  shapeCast_apply v shapeCasts_S1x128x4096_S128x4096 i (ix3 (0 : Fin 1) (i 0) (i 1)) (by
    rw [Shape.rowMajor_val_three, Shape.rowMajor_val_two]
    show (0 * 128 + (i 0).val) * 4096 + (i 1).val = (i 0).val * 4096 + (i 1).val
    omega)

/-- The one entry of a [1, 1] piece. -/
theorem entry_apply (v : Vec Ideal S1x1 .f32) : extractAt ![0, 0] v inpos_S1x1_p0_0 = v (ix2 (0 : Fin 1) (0 : Fin 1)) :=
  congrArg v (funext fun a => Fin.ext (by
    match a with
    | ⟨0, _⟩ => rfl
    | ⟨1, _⟩ => rfl))

/-- The weighted band: what the body multiplies the signal by. -/
def band (v0 v6 v13 v20 : Vec Ideal S1x1 .f32) (v2 v8 v15 v22 : Vec Ideal S1x128x4096 .f32) : S128x4096.Idx → EReal :=
  fun i => v0 (ix2 (0 : Fin 1) (0 : Fin 1)) * v2 (ix3 (0 : Fin 1) (i 0) (i 1)) + v6 (ix2 (0 : Fin 1) (0 : Fin 1)) * v8 (ix3 (0 : Fin 1) (i 0) (i 1))
    + v13 (ix2 (0 : Fin 1) (0 : Fin 1)) * v15 (ix3 (0 : Fin 1) (i 0) (i 1)) + v20 (ix2 (0 : Fin 1) (0 : Fin 1)) * v22 (ix3 (0 : Fin 1) (i 0) (i 1))

/-- The body's arithmetic is the product of the weighted band with the signal. -/
theorem pay_eq (v0 v6 v13 v20 : Vec Ideal S1x1 .f32) (v2 v8 v15 v22 : Vec Ideal S1x128x4096 .f32) (v27 : Vec Ideal S4096x256 .f32) :
    k0_pay1 (F := Ideal) v0 v2 v6 v8 v13 v15 v20 v22 v27 = mm (band v0 v6 v13 v20 v2 v8 v15 v22) v27 := by
  unfold k0_pay1
  refine (Cert.Lib.PlainDot.matmul_zero (M := 128) (K := 4096) (N := 256) none _ v27).trans ?_
  refine congrArg (fun l => mm l v27) (funext fun i => ?_)
  simp only [addf_apply, mulf_apply, broadcast_apply]
  rw [slab_apply v2 i, slab_apply v8 i, slab_apply v15 i, slab_apply v22 i, entry_apply v0, entry_apply v6, entry_apply v13, entry_apply v20]
  rfl

/-- Entry (p, q) of the body's result, when band row p is row r of the operators, the weights are the filter's and the
    signal is the filter's, is entry (r, q) of the filter. -/
theorem pay_at (X : (⟨2, ![4096, 256]⟩ : Shape).Idx → EReal) (S : (⟨3, ![4, 4096, 4096]⟩ : Shape).Idx → EReal)
    (H : (⟨1, ![4]⟩ : Shape).Idx → EReal)
    (v0 v6 v13 v20 : Vec Ideal S1x1 .f32) (v2 v8 v15 v22 : Vec Ideal S1x128x4096 .f32) (v27 : Vec Ideal S4096x256 .f32)
    (p : Fin 128) (q : Fin 256) (r : Fin 4096)
    (h0 : v0 (ix2 (0 : Fin 1) (0 : Fin 1)) = H (ix1 (0 : Fin 4))) (h1 : v6 (ix2 (0 : Fin 1) (0 : Fin 1)) = H (ix1 (1 : Fin 4)))
    (h2 : v13 (ix2 (0 : Fin 1) (0 : Fin 1)) = H (ix1 (2 : Fin 4))) (h3 : v20 (ix2 (0 : Fin 1) (0 : Fin 1)) = H (ix1 (3 : Fin 4)))
    (g0 : ∀ k : Fin 4096, v2 (ix3 (0 : Fin 1) p k) = S (ix3 (0 : Fin 4) r k))
    (g1 : ∀ k : Fin 4096, v8 (ix3 (0 : Fin 1) p k) = S (ix3 (1 : Fin 4) r k))
    (g2 : ∀ k : Fin 4096, v15 (ix3 (0 : Fin 1) p k) = S (ix3 (2 : Fin 4) r k))
    (g3 : ∀ k : Fin 4096, v22 (ix3 (0 : Fin 1) p k) = S (ix3 (3 : Fin 4) r k))
    (gx : ∀ (k : Fin 4096), v27 (ix2 k q) = X (ix2 k q)) :
    k0_pay1 (F := Ideal) v0 v2 v6 v8 v13 v15 v20 v22 v27 (ix2 p q) = filtered X S H (ix2 r q) := by
  rw [pay_eq, mm_apply, filtered_apply]
  refine Finset.sum_congr rfl fun k _ => ?_
  rw [combined_apply, ← h0, ← h1, ← h2, ← h3, ← g0 k, ← g1 k, ← g2 k, ← g3 k, ← gx k]
  rfl

end Cert.KernelIdeal.Band

end
-- ==== Proof.KernelWhole.lean ====
/-
  From bands to the whole array: after the run the kernel's result array is the filter of its arguments.

  The grid has 32 points; point t holds rows 128·t … 128·t + 127 of every operator (the same band of all four), the whole
  weight vector — a [1, 4] view of the four weights, made by a cast before the launch — and the whole signal, and writes
  rows 128·t … 128·t + 127 of the result.  Entry (p, q) of what point t writes is entry (128·t + p, q) of the filter
  (one band of the filter), the 32 bands tile the 4096 rows, so the array ends holding the filter.
-/
import proofs.«104318_g45509473469006_cont_8to1_b_1896_19_alg».proof.Proof.Gen.KernelIdeal.Value
import proofs.«104318_g45509473469006_cont_8to1_b_1896_19_alg».proof.Proof.KernelBand
import Idealize.ShloMosaic.Lib.StableHlo.Run

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.KernelIdeal.Band
open Cert.GraphFilter

variable (m : (ℓ : Loc nD τ sig) → Buf (Elt Ideal) ℓ) (ρ : Dev nD → PrngReg)

/-- The three arguments on core `c`, as the filter's operands. -/
abbrev sigArg (c : Dev nD) : S4096x256.Idx → EReal := m ((c : Thread nD τ).loc main_arg0)
abbrev opsArg (c : Dev nD) : S4x4096x4096.Idx → EReal := m ((c : Thread nD τ).loc main_arg1)
abbrev wtsArg (c : Dev nD) : S4.Idx → EReal := m ((c : Thread nD τ).loc main_arg2)

theorem zeros2 : (![0, 0] : Fin 2 → Nat) = fun _ => 0 := funext fun a => by fin_cases a <;> rfl

/-- Where each window's block sits at grid point `t`: the weights and the signal whole, the operators' band and the
    result's band at row block `t` (decided over the 32 points). -/
theorem block_pos : ∀ t : Fin cfg0.N,
    win0_0.index t (0 : Fin 2) = 0 ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The [1, 4] array the weights' window stages is the weight vector, cast. -/
theorem weights_cast (c : Dev nD) :
    (V m c main_call0_v0 : S1x4.Idx → EReal) = shapeCast S1x4 (wtsArg m c) shapeCasts_S4_S1x4 := by
  dsimp only [Gen.V, Gen.hostOps0]
  after_results
  rfl

/-- The weights' block at any point, read at (0, n), is weight n. -/
theorem weights_read (c : Dev nD) (t : Fin cfg0.N) (y : S1x4.Idx) (n : Fin 4) (hn : (y 1).val = n.val) :
    (iblk m c 0 t : Vec Ideal S1x4 .f32) y = wtsArg m c (ix1 n) := by
  obtain ⟨e00, e01, -⟩ := block_pos t
  unfold iblk
  rw [View.read_apply]
  show V m c main_call0_v0 _ = _
  rw [weights_cast]
  refine shapeCast_apply _ _ _ (ix1 n) ?_
  rw [Shape.rowMajor_val_one, Shape.rowMajor_val_two]
  have h0 : (y 0).val < 1 := (y 0).isLt
  show n.val = (win0_0.index t (0 : Fin 2) * 1 + 1 * (y 0).val) * 4 + (win0_0.index t (1 : Fin 2) * 4 + 1 * (y 1).val)
  rw [e00, e01, hn]
  omega

/-- The operators' block at point `t`, read at (s, p, k), is operator s at row 128·t + p, column k. -/
theorem ops_read (c : Dev nD) (t : Fin cfg0.N) (y : S4x128x4096.Idx) (s : Fin 4) (r k : Fin 4096)
    (hs : (y 0).val = s.val) (hr : r.val = t.val * 128 + (y 1).val) (hk : (y 2).val = k.val) :
    (iblk m c 1 t : Vec Ideal S4x128x4096 .f32) y = opsArg m c (ix3 s r k) := by
  obtain ⟨-, -, e10, e11, e12, -⟩ := block_pos t
  unfold iblk
  rw [View.read_apply]
  show V m c main_arg1 _ = _
  rw [V_main_arg1 m c]
  refine congrArg (opsArg m c) (funext fun a => Fin.ext ?_)
  match a with
  | ⟨0, _⟩ => show win0_1.index t (0 : Fin 3) * 4 + 1 * (y 0).val = s.val; rw [e10, hs]; omega
  | ⟨1, _⟩ => show win0_1.index t (1 : Fin 3) * 128 + 1 * (y 1).val = r.val; rw [e11, hr]; omega
  | ⟨2, _⟩ => show win0_1.index t (2 : Fin 3) * 4096 + 1 * (y 2).val = k.val; rw [e12, hk]; omega

/-- The signal's block at any point is the signal. -/
theorem sig_read (c : Dev nD) (t : Fin cfg0.N) (y : S4096x256.Idx) (k : Fin 4096) (q : Fin 256)
    (hk : (y 0).val = k.val) (hq : (y 1).val = q.val) :
    (iblk m c 2 t : Vec Ideal S4096x256 .f32) y = sigArg m c (ix2 k q) := by
  obtain ⟨-, -, -, -, -, e20, e21, -⟩ := block_pos t
  unfold iblk
  rw [View.read_apply]
  show V m c main_arg0 _ = _
  rw [V_main_arg0 m c]
  refine congrArg (sigArg m c) (funext fun a => Fin.ext ?_)
  match a with
  | ⟨0, _⟩ => show win0_2.index t (0 : Fin 2) * 4096 + 1 * (y 0).val = k.val; rw [e20, hk]; omega
  | ⟨1, _⟩ => show win0_2.index t (1 : Fin 2) * 256 + 1 * (y 1).val = q.val; rw [e21, hq]; omega

/-- What point `t` writes back is band `t` of the filter of the arguments. -/
theorem flushed_eq (c : Dev nD) (t : Fin cfg0.N) :
    (dats m 0 c).flushed 3 t
      = ((cfg0.win 3).blk t).view.read (Elt Ideal) (filtered (sigArg m c) (opsArg m c) (wtsArg m c)) := by
  rw [Value.flushed3]
  unfold out0_3
  rw [View.canon_unit_zero zeros2]
  obtain ⟨-, -, -, -, -, -, -, e30, e31⟩ := block_pos t
  have ht : t.val < 32 := by have h := t.isLt; have hN : cfg0.N = 32 := N_0; omega
  funext j
  obtain ⟨p, q, rfl⟩ : ∃ (p : Fin 128) (q : Fin 256), j = ix2 p q := ⟨j 0, j 1, eq_ix2 (n0 := 128) (n1 := 256) j⟩
  have hp := p.isLt
  rw [View.read_apply]
  have hemb : ((cfg0.win 3).blk t).view.emb (ix2 p q) = ix2 (⟨t.val * 128 + p.val, by omega⟩ : Fin 4096) q :=
    funext fun a => Fin.ext (by
      match a with
      | ⟨0, _⟩ => show win0_3.index t (0 : Fin 2) * 128 + 1 * p.val = t.val * 128 + p.val; rw [e30]; omega
      | ⟨1, _⟩ => show win0_3.index t (1 : Fin 2) * 256 + 1 * q.val = q.val; rw [e31]; omega)
  rw [hemb]
  exact pay_at (sigArg m c) (opsArg m c) (wtsArg m c)
    (View.ld (iblk m c 0 t) r0_0) (View.ld (iblk m c 0 t) r0_2) (View.ld (iblk m c 0 t) r0_4) (View.ld (iblk m c 0 t) r0_6)
    (View.ld (iblk m c 1 t) r0_1) (View.ld (iblk m c 1 t) r0_3) (View.ld (iblk m c 1 t) r0_5) (View.ld (iblk m c 1 t) r0_7)
    (View.ld (iblk m c 2 t) r0_8) p q (⟨t.val * 128 + p.val, by omega⟩ : Fin 4096)
    (weights_read m c t _ (0 : Fin 4) rfl) (weights_read m c t _ (1 : Fin 4) rfl)
    (weights_read m c t _ (2 : Fin 4) rfl) (weights_read m c t _ (3 : Fin 4) rfl)
    (fun k => ops_read m c t _ (0 : Fin 4) _ k rfl (by show t.val * 128 + p.val = t.val * 128 + (0 + 1 * p.val); omega) (by show 0 + 1 * k.val = k.val; omega))
    (fun k => ops_read m c t _ (1 : Fin 4) _ k rfl (by show t.val * 128 + p.val = t.val * 128 + (0 + 1 * p.val); omega) (by show 0 + 1 * k.val = k.val; omega))
    (fun k => ops_read m c t _ (2 : Fin 4) _ k rfl (by show t.val * 128 + p.val = t.val * 128 + (0 + 1 * p.val); omega) (by show 0 + 1 * k.val = k.val; omega))
    (fun k => ops_read m c t _ (3 : Fin 4) _ k rfl (by show t.val * 128 + p.val = t.val * 128 + (0 + 1 * p.val); omega) (by show 0 + 1 * k.val = k.val; omega))
    (fun k => sig_read m c t _ k q (by show 0 + 1 * k.val = k.val; omega) (by show 0 + 1 * q.val = q.val; omega))

/-- An index of the result array is in point `t`'s block iff each coordinate is in the block's range on its axis. -/
theorem mem_band (t : Fin cfg0.N) (i : S4096x256.Idx) :
    i ∈ ((cfg0.win 3).blk t).view.set ↔ ∀ a : Fin 2, win0_3.index t a * S128x256.size a ≤ (i a).val
      ∧ (i a).val < win0_3.index t a * S128x256.size a + S128x256.size a := by
  show i ∈ ((View.whole main_v0).slice (win0_3.rect t)).set ↔ _
  rw [View.set_slice_whole, Rect.mem_set_unit]
  exact Iff.rfl

/-- Every row lies in a band: row r in band r / 128. -/
theorem bands_cover (i : S4096x256.Idx) :
    ∃ t : Fin cfg0.N, (cfg0.win 3).flush t = true ∧ i ∈ ((cfg0.win 3).blk t).view.set := by
  have hi0 : (i 0).val < 4096 := (i 0).isLt
  have hi1 : (i 1).val < 256 := (i 1).isLt
  have hN : cfg0.N = 32 := N_0
  refine ⟨⟨(i 0).val / 128, by rw [hN]; omega⟩, flush0_3 _, ?_⟩
  rw [mem_band]
  obtain ⟨-, -, -, -, -, -, -, e30, e31⟩ := block_pos ⟨(i 0).val / 128, by rw [hN]; omega⟩
  intro a
  match a with
  | ⟨0, _⟩ =>
    show win0_3.index ⟨(i 0).val / 128, _⟩ (0 : Fin 2) * 128 ≤ (i 0).val
      ∧ (i 0).val < win0_3.index ⟨(i 0).val / 128, _⟩ (0 : Fin 2) * 128 + 128
    rw [e30]
    show (i 0).val / 128 * 128 ≤ (i 0).val ∧ (i 0).val < (i 0).val / 128 * 128 + 128
    omega
  | ⟨1, _⟩ =>
    show win0_3.index ⟨(i 0).val / 128, _⟩ (1 : Fin 2) * 256 ≤ (i 1).val
      ∧ (i 1).val < win0_3.index ⟨(i 0).val / 128, _⟩ (1 : Fin 2) * 256 + 256
    rw [e31]
    omega

/-- The result array after the run is the filter of the arguments. -/
theorem final (c : Dev nD) :
    (dats m 0 c).arrAt 3 cfg0.N = filtered (sigArg m c) (opsArg m c) (wtsArg m c) :=
  (dats m 0 c).arrAt_eq_of_cover 3 (filtered (sigArg m c) (opsArg m c) (wtsArg m c)) (fun t _ => flushed_eq m c t) bands_cover

/-- The kernel's run: every weakly fair execution ends with the result array at the filter of the arguments and the
    arguments unchanged. -/
theorem run : θ_run defs (onTc (τ := τ) (main (F := Ideal))) ⟨m, fun _ => 0, ρ⟩ fun r => ∀ c : Dev nD,
      r.2.mem ((c : Thread nD τ).loc main_v0) = filtered (sigArg m c) (opsArg m c) (wtsArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefFilter.lean ====
/-
  The reference computes the graph filter.

  The host program slices operator n and weight n out of their arrays (a [1, 4096, 4096] slab cast to [4096, 4096];
  a one-entry slice cast to a scalar and spread over the square), multiplies, and adds the four products onto a
  square of zeros, from the left; the last step is one matrix product with the signal.  Read at an entry (r, k) the
  running sum is  ((0 + h₀·S₀) + h₁·S₁ + h₂·S₂) + h₃·S₃  at (r, k), and 0 + a = a on the extended reals, so the
  square is the combined operator and the result is the filter.
-/
import proofs.«104318_g45509473469006_cont_8to1_b_1896_19_alg».proof.Proof.Gen.ReferenceIdeal.Read
import proofs.«104318_g45509473469006_cont_8to1_b_1896_19_alg».proof.Proof.FilterSpec

noncomputable section

namespace Cert.ReferenceIdeal.Filter

open Idealize.ShloMosaic Idealize.ShloMosaic.ValueIdx Cert.ReferenceIdeal Cert.ReferenceIdeal.Gen Cert.ReferenceIdeal.Read
open Cert.GraphFilter Cert.Lib.PlainDot

variable (x1 : (⟨S4x4096x4096, .f32⟩ : BufTy).Contents (Elt Ideal)) (x2 : (⟨S4, .f32⟩ : BufTy).Contents (Elt Ideal))

/-- Operator 0 of the stack, as the reference cuts it out (for the running sum). -/
theorem op0 (r k : Fin 4096) : val_main_v6 (F := Ideal) x1 (ix2 r k) = x1 (ix3 (0 : Fin 4) r k) := by
  rw [val_main_v6_apply, val_main_v5_apply]
  refine congrArg x1 (funext fun a => Fin.ext ?_)
  have hr := r.isLt; have hk := k.isLt
  match a with
  | ⟨0, _⟩ => rfl
  | ⟨1, _⟩ => show (r.val * 4096 + k.val) / 4096 % 4096 = r.val; omega
  | ⟨2, _⟩ => show (r.val * 4096 + k.val) % 4096 = k.val; omega

theorem op1 (r k : Fin 4096) : val_main_v13 (F := Ideal) x1 (ix2 r k) = x1 (ix3 (1 : Fin 4) r k) := by
  rw [val_main_v13_apply, val_main_v12_apply]
  refine congrArg x1 (funext fun a => Fin.ext ?_)
  have hr := r.isLt; have hk := k.isLt
  match a with
  | ⟨0, _⟩ => rfl
  | ⟨1, _⟩ => show (r.val * 4096 + k.val) / 4096 % 4096 = r.val; omega
  | ⟨2, _⟩ => show (r.val * 4096 + k.val) % 4096 = k.val; omega

theorem op2 (r k : Fin 4096) : val_main_v20 (F := Ideal) x1 (ix2 r k) = x1 (ix3 (2 : Fin 4) r k) := by
  rw [val_main_v20_apply, val_main_v19_apply]
  refine congrArg x1 (funext fun a => Fin.ext ?_)
  have hr := r.isLt; have hk := k.isLt
  match a with
  | ⟨0, _⟩ => rfl
  | ⟨1, _⟩ => show (r.val * 4096 + k.val) / 4096 % 4096 = r.val; omega
  | ⟨2, _⟩ => show (r.val * 4096 + k.val) % 4096 = k.val; omega

theorem op3 (r k : Fin 4096) : val_main_v27 (F := Ideal) x1 (ix2 r k) = x1 (ix3 (3 : Fin 4) r k) := by
  rw [val_main_v27_apply, val_main_v26_apply]
  refine congrArg x1 (funext fun a => Fin.ext ?_)
  have hr := r.isLt; have hk := k.isLt
  match a with
  | ⟨0, _⟩ => rfl
  | ⟨1, _⟩ => show (r.val * 4096 + k.val) / 4096 % 4096 = r.val; omega
  | ⟨2, _⟩ => show (r.val * 4096 + k.val) % 4096 = k.val; omega

/-- Weight n spread over the square is weight n at every position. -/
theorem wt0 (i : S4096x4096.Idx) : val_main_v7 (F := Ideal) x2 i = x2 (ix1 (0 : Fin 4)) := by
  rw [val_main_v7_apply]
  exact entry_of_slice x2 0 (0 : Fin 4) rfl slices_S4_S1_0 shapeCasts_S1_S_ _

theorem wt1 (i : S4096x4096.Idx) : val_main_v14 (F := Ideal) x2 i = x2 (ix1 (1 : Fin 4)) := by
  rw [val_main_v14_apply]
  exact entry_of_slice x2 1 (1 : Fin 4) rfl slices_S4_S1_1 shapeCasts_S1_S_ _

theorem wt2 (i : S4096x4096.Idx) : val_main_v21 (F := Ideal) x2 i = x2 (ix1 (2 : Fin 4)) := by
  rw [val_main_v21_apply]
  exact entry_of_slice x2 2 (2 : Fin 4) rfl slices_S4_S1_2 shapeCasts_S1_S_ _

theorem wt3 (i : S4096x4096.Idx) : val_main_v28 (F := Ideal) x2 i = x2 (ix1 (3 : Fin 4)) := by
  rw [val_main_v28_apply]
  exact entry_of_slice x2 3 (3 : Fin 4) rfl slices_S4_S1_3 shapeCasts_S1_S_ _

/-- The square of zeros the running sum starts from. -/
theorem zeros (i : S4096x4096.Idx) : val_main_v2 (F := Ideal) i = 0 := by
  rw [val_main_v2_apply, val_main_cst_apply]
  exact Ideal.ofBits_zero_f32

/-- The reference's square, after the fourth addition, is the combined operator. -/
theorem square_eq : val_main_v30 (F := Ideal) x1 x2 = combined x1 x2 := by
  funext i
  obtain ⟨r, k, rfl⟩ : ∃ (r : Fin 4096) (k : Fin 4096), i = ix2 r k := ⟨i 0, i 1, eq_ix2 i⟩
  rw [val_main_v30_apply, val_main_v23_apply, val_main_v16_apply, val_main_v9_apply, val_main_v29_apply,
    val_main_v22_apply, val_main_v15_apply, val_main_v8_apply, zeros, wt0, wt1, wt2, wt3, op0, op1, op2, op3,
    combined_apply]
  show (0 + x2 (ix1 (0 : Fin 4)) * x1 (ix3 (0 : Fin 4) r k) + x2 (ix1 (1 : Fin 4)) * x1 (ix3 (1 : Fin 4) r k)
      + x2 (ix1 (2 : Fin 4)) * x1 (ix3 (2 : Fin 4) r k) + x2 (ix1 (3 : Fin 4)) * x1 (ix3 (3 : Fin 4) r k) : EReal) = _
  rw [zero_add]

/-- The reference's result is the filter of its three arguments. -/
theorem result_eq (x0 : (⟨S4096x256, .f32⟩ : BufTy).Contents (Elt Ideal)) :
    val_main_v31 (F := Ideal) x0 x1 x2 = filtered x0 x1 x2 := by
  unfold val_main_v31 filtered
  rw [square_eq]
  exact Cert.Lib.PlainDot.dotGeneral (M := 4096) (K := 4096) (N := 256) none (combined x1 x2) x0

end Cert.ReferenceIdeal.Filter

end
-- ==== Proof.lean ====
/-
  The certificate of the graph-filter kernel against its reference.

  Both programs compute  out = (h₀·S₀ + h₁·S₁ + h₂·S₂ + h₃·S₃) · x  for a stack S of four 4096 × 4096 operators, four
  weights h and a 4096 × 256 signal x.  The kernel works band by band: at each of 32 grid points it combines a band of
  128 rows of the four operators with the weights and multiplies the band by the whole signal.  The reference builds the
  whole combined operator, starting the sum from a square of zeros, and multiplies once.

  Over the extended reals the two results are one function of the arguments (FilterSpec: `filtered`): a row of a
  matrix product reads that row of the left operand only, so the bands of the product are the products of the bands
  (KernelBand, KernelWhole), and the reference's leading zero is absorbed by 0 + a = a (RefFilter).  No entry needs to be
  finite for this, so the precondition is not used.  The idealization rewrote nothing, so `preserves` is trivial.
-/
import proofs.«104318_g45509473469006_cont_8to1_b_1896_19_alg».proof.Defs
import proofs.«104318_g45509473469006_cont_8to1_b_1896_19_alg».proof.Proof.Gen.Kernel
import proofs.«104318_g45509473469006_cont_8to1_b_1896_19_alg».proof.Proof.Gen.Kernel.Skeleton
import proofs.«104318_g45509473469006_cont_8to1_b_1896_19_alg».proof.Proof.Gen.Kernel.Launch
import proofs.«104318_g45509473469006_cont_8to1_b_1896_19_alg».proof.Proof.Gen.Kernel.Points
import proofs.«104318_g45509473469006_cont_8to1_b_1896_19_alg».proof.Proof.Gen.Kernel.Frame
import proofs.«104318_g45509473469006_cont_8to1_b_1896_19_alg».proof.Proof.Gen.KernelIdeal
import proofs.«104318_g45509473469006_cont_8to1_b_1896_19_alg».proof.Proof.Gen.KernelIdeal.Skeleton
import proofs.«104318_g45509473469006_cont_8to1_b_1896_19_alg».proof.Proof.Gen.KernelIdeal.Launch
import proofs.«104318_g45509473469006_cont_8to1_b_1896_19_alg».proof.Proof.Gen.KernelIdeal.Points
import proofs.«104318_g45509473469006_cont_8to1_b_1896_19_alg».proof.Proof.Gen.KernelIdeal.Frame
import proofs.«104318_g45509473469006_cont_8to1_b_1896_19_alg».proof.Proof.Gen.ReferenceIdeal
import proofs.«104318_g45509473469006_cont_8to1_b_1896_19_alg».proof.Proof.Gen.Pre_finite_inputs
import proofs.«104318_g45509473469006_cont_8to1_b_1896_19_alg».proof.Proof.Gen.KernelIdeal.Value
import proofs.«104318_g45509473469006_cont_8to1_b_1896_19_alg».proof.Proof.Gen.ReferenceIdeal.Run
import proofs.«104318_g45509473469006_cont_8to1_b_1896_19_alg».proof.Proof.Gen.ReferenceIdeal.Read
import proofs.«104318_g45509473469006_cont_8to1_b_1896_19_alg».proof.Proof.KernelWhole
import proofs.«104318_g45509473469006_cont_8to1_b_1896_19_alg».proof.Proof.RefFilter
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the arguments both programs end with the result array at the filter of the arguments. -/
theorem algebraic : Cert.algebraic_KernelIdeal_ReferenceIdeal := by
  intro m ρ m' ρ' _ hagree
  refine ⟨fun c => Cert.GraphFilter.filtered (Cert.KernelIdeal.Whole.sigArg m c) (Cert.KernelIdeal.Whole.opsArg m c)
    (Cert.KernelIdeal.Whole.wtsArg m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.Filter.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
